-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S16384x1024 .f32) (main_arg1 : FVec F S1024x1024 .f32) (main_arg2 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S1x1024x1024 : Shape := ⟨3, ![1, 1024, 1024]⟩
abbrev S1 : Shape := ⟨1, ![1]⟩
abbrev S1x1x1 : Shape := ⟨3, ![1, 1, 1]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024, .f32⟩
  | .hbm, ⟨3, _⟩ => ⟨S1x1024, .f32⟩
  | .hbm, ⟨4, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  natLt_1_32 : 1 < 32
  shapeCasts_S1024x1024_S1x1024x1024 : S1024x1024.ShapeCasts S1x1024x1024
  reduces_S1x1024x1024_S1 : S1x1024x1024.Reduces [1, 2] S1
  shapeCasts_S1_S1x1x1 : S1.ShapeCasts S1x1x1
  inpos_S1x1x1_p0_0_0 : ∀ a, (![0, 0, 0] : Fin 3 → Nat) a < S1x1x1.size a
  bitsLt_bf16_f32 : FTy.bits .bf16 < FTy.bits .f32
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x1024.size a
  hwx0_3 : ∀ i : grid0.Coords, EltTy.bits .f32 = 32 ∨ (Rect.block (s := S16384x1024) S1024x1024.size (cc0_transform_3 i) (hinb0_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩

abbrev nBuf : Space → Nat
  | .hbm => 32
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024, .f32⟩
  | .hbm, ⟨3, _⟩ => ⟨S_, .f32⟩
  | .hbm, ⟨4, _⟩ => ⟨S1024x1024, .f32⟩
  | .hbm, ⟨5, _⟩ => ⟨S1024x1024, .i1⟩
  | .hbm, ⟨6, _⟩ => ⟨S1024x1024, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S_, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S_, .f32⟩
  | .hbm, ⟨21, _⟩ => ⟨S1024x1024, .f32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S16384x1024, .f32⟩
  | .hbm, ⟨29, _⟩ => ⟨S1x1024, .f32⟩
  | .hbm, ⟨30, _⟩ => ⟨S16384x1024, .f32⟩
  | .hbm, ⟨31, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  dot_S16384x1024_S1024x1024_S16384x1024_1_1_0_0_n_n_wf : DotDims.WF S16384x1024 S1024x1024 S16384x1024 [1] [1] [0] [0] [] []

variable [Facts₀]

def dot_S16384x1024_S1024x1024_S16384x1024_1_1_0_0_n_n : DotDims S16384x1024 S1024x1024 S16384x1024 where
  lhsContracting := [1]
  rhsContracting := [1]
  lhsNonContracting := [0]
  rhsNonContracting := [0]
  lhsBatch := []
  rhsBatch := []
  wf := dot_S16384x1024_S1024x1024_S16384x1024_1_1_0_0_n_n_wf

class Facts : Prop extends Facts₀ where

variable [Facts]
-- ==== Proof.Pieces.lean ====
/-
  What one run of the kernel body leaves behind, as values of its inputs, at any float instance.

  The body has two cases. At the first step of a core's row tiles it quantises the whole weight block into the scratch,
  then reads the scratch back for the product; at every other step it only reads the scratch, which still holds what an
  earlier step left. In both cases the output block is ONE store of the product-plus-bias term, whose operands are the
  whole activation block, the whole scratch and the whole bias row; in the first case the scratch is ONE store of the
  quantiser's term of the whole weight block. So:

    first step : scratch = quantiser (weights),   output = product (activations, quantiser (weights), bias)
    other steps: scratch = what it held,          output = product (activations, what the scratch held, bias)

  The two named terms are the body's own pure payloads; nothing of their arithmetic is opened here.
-/
import proofs.«156825_j6030134083893_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem
open Idealize.ShloMosaic.Tactic

variable {F : FTy → Type} [FloatOps F]

/-- The offsets of every load and store of the body: the origin of a rank-2 block. -/
theorem origin2 : (![0, 0] : Fin 2 → Nat) = fun _ => 0 :=
  funext fun a => match a with | ⟨0, _⟩ => rfl | ⟨1, _⟩ => rfl

/-- FIRST STEP, the scratch: the quantiser's term of the weight block, stored whole. -/
theorem scratch_first (c : Dev nD) (i : grid0.Coords) (arg2 : Memref sig .tc .vmem S1024x1024 .f32) (harg2 : arg2.IsWhole)
    (arg3 : Memref sig .tc .vmem S1024x1024 .f32) (harg3 : arg3.IsWhole) (arg4 : Memref sig .tc .vmem S1x1024 .f32) (harg4 : arg4.IsWhole)
    (arg5 : Memref sig .tc .vmem S1024x1024 .f32) (harg5 : arg5.IsWhole) (arg6 : Memref sig .tc .vmem S1024x1024 .bf16) (harg6 : arg6.IsWhole) (hc0 : cond0_0 i)
    (x0 : Vec F S1024x1024 .f32) (x1 : Vec F S1024x1024 .f32) (x2 : Vec F S1x1024 .f32) :
    sout0_A_0 c i arg2 harg2 arg3 harg3 arg4 harg4 arg5 harg5 arg6 harg6 hc0 x0 x1 x2 = k0_pay1 x1 := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_words
  rw [View.canon_unit_zero origin2]
  simp only [View.readAt_eq_ld, harg3.read_unread, View.ld_unit_zero (S := S1024x1024) origin2]

/-- FIRST STEP, the output block: the product term of the activation block, the scratch JUST WRITTEN (read back whole)
    and the bias row. -/
theorem output_first (c : Dev nD) (i : grid0.Coords) (arg2 : Memref sig .tc .vmem S1024x1024 .f32) (harg2 : arg2.IsWhole)
    (arg3 : Memref sig .tc .vmem S1024x1024 .f32) (harg3 : arg3.IsWhole) (arg4 : Memref sig .tc .vmem S1x1024 .f32) (harg4 : arg4.IsWhole)
    (arg5 : Memref sig .tc .vmem S1024x1024 .f32) (harg5 : arg5.IsWhole) (arg6 : Memref sig .tc .vmem S1024x1024 .bf16) (harg6 : arg6.IsWhole) (hc0 : cond0_0 i)
    (x0 : Vec F S1024x1024 .f32) (x1 : Vec F S1024x1024 .f32) (x2 : Vec F S1x1024 .f32) :
    out0_A_3 c i arg2 harg2 arg3 harg3 arg4 harg4 arg5 harg5 arg6 harg6 hc0 x0 x1 x2 = k0_pay2 x0 (k0_pay1 x1) x2 := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_unit_zero origin2]
  simp only [View.readAt_eq_ld, harg2.read_unread, harg3.read_unread, harg4.read_unread,
    View.ld_unit_zero (S := S1024x1024) origin2, View.ld_unit_zero (S := S1x1024) origin2,
    View.readCov_unit_zero (S := S1024x1024) _ origin2]

/-- OTHER STEPS, the output block: the product term of the activation block, what the scratch held and the bias row. -/
theorem output_later (c : Dev nD) (i : grid0.Coords) (arg2 : Memref sig .tc .vmem S1024x1024 .f32) (harg2 : arg2.IsWhole)
    (arg3 : Memref sig .tc .vmem S1024x1024 .f32) (harg3 : arg3.IsWhole) (arg4 : Memref sig .tc .vmem S1x1024 .f32) (harg4 : arg4.IsWhole)
    (arg5 : Memref sig .tc .vmem S1024x1024 .f32) (harg5 : arg5.IsWhole) (arg6 : Memref sig .tc .vmem S1024x1024 .bf16) (harg6 : arg6.IsWhole) (hc0 : ¬cond0_0 i)
    (x0 : Vec F S1024x1024 .f32) (x1 : Vec F S1024x1024 .f32) (x2 : Vec F S1x1024 .f32) (xs0 : Vec F S1024x1024 .bf16) :
    out0_B_3 c i arg2 harg2 arg3 harg3 arg4 harg4 arg5 harg5 arg6 harg6 hc0 x0 x1 x2 xs0 = k0_pay2 x0 xs0 x2 := by
  unfold out0_B_3
  rw [View.read_writes_eq_canon _ _ _ (cover0_B_3 c i arg2 harg2 arg3 harg3 arg4 harg4 arg5 harg5 arg6 harg6 hc0 x0 x1 x2 xs0)]
  unfold kernelRun0_B
  dsimp only
  rw [View.canon_unit_zero origin2]
  simp only [View.readAt_eq_ld, harg2.read_unread, harg4.read_unread, harg6.read_unread,
    View.ld_unit_zero (S := S1024x1024) origin2, View.ld_unit_zero (S := S1x1024) origin2]

/-- OTHER STEPS, the scratch: untouched. -/
theorem scratch_later (c : Dev nD) (i : grid0.Coords) (arg2 : Memref sig .tc .vmem S1024x1024 .f32) (harg2 : arg2.IsWhole)
    (arg3 : Memref sig .tc .vmem S1024x1024 .f32) (harg3 : arg3.IsWhole) (arg4 : Memref sig .tc .vmem S1x1024 .f32) (harg4 : arg4.IsWhole)
    (arg5 : Memref sig .tc .vmem S1024x1024 .f32) (harg5 : arg5.IsWhole) (arg6 : Memref sig .tc .vmem S1024x1024 .bf16) (harg6 : arg6.IsWhole) (hc0 : ¬cond0_0 i)
    (x0 : Vec F S1024x1024 .f32) (x1 : Vec F S1024x1024 .f32) (x2 : Vec F S1x1024 .f32) (xs0 : Vec F S1024x1024 .bf16) :
    sout0_B_0 c i arg2 harg2 arg3 harg3 arg4 harg4 arg5 harg5 arg6 harg6 hc0 x0 x1 x2 xs0 = xs0 := rfl

end Cert.KernelIdeal.Pieces

end
-- ==== Proof.FakeQuant.lean ====
/-
  The mathematics the two programs share: asymmetric four-bit fake quantisation of a weight matrix, and the affine
  layer over the quantised weights, on the extended reals.

  For a matrix `w` let `hi` be its greatest entry, `lo` its least and `hi - lo` its span. An entry `v` is moved to
  `(v - lo) / (hi - lo)`, scaled by 15 (the number of steps of a four-bit code), rounded to the nearest integer with
  ties to even, scaled back by 15 and mapped back to `(hi - lo) * r + lo`; an entry that is exactly `0` stays `0`, which
  is the product with the indicator of `v ≠ 0`. The layer is `y[t, n] = (sum over m of x[t, m] * q[n, m]) + b[n]`: row `t`
  of the activations against row `n` of the quantised weights, plus the bias of column `n`.

  Every operation is the exact one of the extended reals (the quotient is the instance's total division, the rounding its
  lift of round-half-even, which fixes the infinities), and the literals are kept as their 32-bit words: the same
  word stands on both sides of every equation below, so it is never evaluated. The greatest and the least entry are folds
  of the maximum and the minimum over ALL entries, from `-∞` and `+∞`; both operations commute and associate, so the
  fold does not depend on the order the entries are visited in, nor on how the index set is written.
-/
import Idealize.ShloMosaic.PureOps.Ideal
import Idealize.ShloMosaic.PureOps.Ideal.Laws
import Idealize.ShloMosaic.Lib.ValueIdx

noncomputable section

open scoped BigOperators

namespace Cert.FakeQuant

open Idealize.ShloMosaic Idealize.ShloMosaic.ValueIdx

/-- The number of quantisation steps, 15 = 2^4 - 1, as the single-precision word both programs carry. -/
def steps : EReal := Ideal.ofBits .f32 0x41700000#32

/-- The zero an entry is compared with, as the single-precision word both programs carry. -/
def zeroWord : EReal := Ideal.ofBits .f32 0x00000000#32

/-- The indicator of a nonzero entry: `1` when `v ≠ 0`, else `0`, as the one-bit answer of the comparison read as a
    natural number. -/
def keep (v : EReal) : EReal := (((Ideal.cmp .une v zeroWord).toNat : ℝ) : EReal)

/-- One entry's quantised value, given the matrix's greatest entry `hi` and least entry `lo`:
    `((hi - lo) * (round (15 * ((v - lo) / (hi - lo))) / 15) + lo) * [v ≠ 0]`. -/
def quantAt (hi lo v : EReal) : EReal :=
  ((hi - lo) * Ideal.div (Ideal.liftRound Ideal.roundHalfEven (steps * Ideal.div (v - lo) (hi - lo))) steps + lo) * keep v

/-- The greatest entry of a weight matrix: the maximum folded over all its entries, from the word of `-∞`. -/
def greatest (w : (⟨2, ![1024, 1024]⟩ : Shape).Idx → EReal) : EReal :=
  Finset.univ.fold (FloatOps.maximumf (F := Ideal) (φ := .f32)) (FloatOps.ofBits (F := Ideal) .f32 0xFF800000#32) w

/-- The least entry of a weight matrix: the minimum folded over all its entries, from the word of `+∞`. -/
def least (w : (⟨2, ![1024, 1024]⟩ : Shape).Idx → EReal) : EReal :=
  Finset.univ.fold (FloatOps.minimumf (F := Ideal) (φ := .f32)) (FloatOps.ofBits (F := Ideal) .f32 0x7F800000#32) w

/-- The quantised weight matrix: every entry quantised against the matrix's own greatest and least entries. -/
def quantized (w : (⟨2, ![1024, 1024]⟩ : Shape).Idx → EReal) : (⟨2, ![1024, 1024]⟩ : Shape).Idx → EReal :=
  fun i => quantAt (greatest w) (least w) (w i)

/-- One entry of the affine layer: row `t` of `x` against row `n` of the weights `q`, plus the bias at `n`. -/
def layerAt (x : (⟨2, ![16384, 1024]⟩ : Shape).Idx → EReal) (q : (⟨2, ![1024, 1024]⟩ : Shape).Idx → EReal)
    (b : (⟨1, ![1024]⟩ : Shape).Idx → EReal) (t : Fin 16384) (n : Fin 1024) : EReal :=
  (∑ m : Fin 1024, x (ix2 t m) * q (ix2 n m)) + b (ix1 n)

/-- The whole result: the affine layer of `x` over the quantisation of `w`, with bias `b`, as one array. -/
def layer (x : (⟨2, ![16384, 1024]⟩ : Shape).Idx → EReal) (w : (⟨2, ![1024, 1024]⟩ : Shape).Idx → EReal)
    (b : (⟨1, ![1024]⟩ : Shape).Idx → EReal) : (⟨2, ![16384, 1024]⟩ : Shape).Idx → EReal :=
  fun i => layerAt x (quantized w) b (i 0) (i 1)

end Cert.FakeQuant

end
-- ==== Proof.LibFoldReindex.lean ====
/-
  A fold of a commutative, associative operation over ALL elements of a finite type does not depend on how the type is
  written: along a bijection `e : α ≃ β`, folding `f ∘ e` over `α` is folding `f` over `β`. This is what lets a
  reduction of an array be compared with the same reduction of a reshaped copy of it (the reshape being a bijection of
  index sets), for any operation — a sum, a maximum, a minimum — and any extents.

  A second, smaller fact of the same kind: a filter that keeps every element is no filter.
-/
import Mathlib.Data.Finset.Fold
import Mathlib.Data.Finset.BooleanAlgebra
import Mathlib.Data.Fintype.Basic

namespace Cert.FoldReindex

variable {α β γ : Type*}

/-- Folding `f ∘ e` over all of `α` equals folding `f` over all of `β`, for a bijection `e : α ≃ β` and a commutative,
    associative operation: the image of everything under a bijection is everything. -/
theorem fold_univ_comp_equiv [Fintype α] [Fintype β] (op : γ → γ → γ) [Std.Commutative op] [Std.Associative op]
    (b : γ) (f : β → γ) (e : α ≃ β) :
    (Finset.univ : Finset α).fold op b (fun a => f (e a)) = (Finset.univ : Finset β).fold op b f := by
  have h := Finset.fold_map (op := op) (b := b) (g := e.toEmbedding) (f := f) (s := (Finset.univ : Finset α))
  rw [Finset.map_univ_equiv] at h
  exact h.symm

/-- A filter whose predicate holds of every element keeps everything. -/
theorem filter_univ_of_forall [Fintype α] (p : α → Prop) [DecidablePred p] (h : ∀ a, p a) :
    (Finset.univ : Finset α).filter p = Finset.univ :=
  Finset.filter_true_of_mem fun a _ => h a

end Cert.FoldReindex
-- ==== Proof.QuantKernel.lean ====
/-
  The kernel's quantiser is the specification's, entry by entry, on the extended reals.

  The body's first payload takes the whole weight block `w` and returns the block it parks in the scratch. Read at an
  entry it is `((hi - lo) * (round (15 * ((w - lo) / (hi - lo))) / 15) + lo) * [w ≠ 0]` — every operation pointwise and
  exact — where `hi` and `lo` come from two lane reductions of `w` viewed as a stack of ONE matrix: the maximum (from
  `-∞`) and the minimum (from `+∞`) over both matrix axes, each cast to a one-entry cube and read at its entry. Three
  facts turn those into the specification's folds over all entries:
    • a reduction down to one result is the fold over every source entry (all of them drop to that one result);
    • viewing a matrix as a stack of one matrix is a bijection of index sets, and a fold of a commutative, associative
      operation does not see it;
    • the indicator: the comparison's one bit, zero-extended and read signed, is the same bit read unsigned, and
      "ordered and different" is "different" where nothing is unordered.
  The final change of float format is the identity on the extended reals.
-/
import proofs.«156825_j6030134083893_2_alg».proof.Proof.Gen.KernelIdeal.Skeleton
import proofs.«156825_j6030134083893_2_alg».proof.Proof.FakeQuant
import proofs.«156825_j6030134083893_2_alg».proof.Proof.LibFoldReindex
import Idealize.ShloMosaic.Lib.KernelVsHost
import Idealize.ShloMosaic.Lib.Pipeline.Value
import Idealize.ShloMosaic.PureOps.Ideal.Laws

noncomputable section

namespace Cert.KernelIdeal.Quantiser

open Cert.KernelIdeal Cert.KernelIdeal.Gen Idealize.ShloMosaic Idealize.ShloMosaic.ValueIdx
open Cert.FakeQuant Cert.FoldReindex

/-- A shape with one entry has one index. -/
instance : Subsingleton S1.Idx :=
  ⟨fun a b => funext fun d => match d with | ⟨0, _⟩ => Subsingleton.elim (α := Fin 1) _ _⟩

/-- Reading the one entry of a one-entry cube that is a cast of a one-entry vector reads that vector, at the index the
    cast sends the cube's entry to. Stated for ANY one-entry vector, so that nothing about the vector is ever opened. -/
theorem extract_cast {α : Type} (v : S1.Idx → α) (h2 : S1.ShapeCasts S1x1x1)
    (h3 : ∀ a, (![0, 0, 0] : Fin 3 → Nat) a < S1x1x1.size a) :
    extractAt ![0, 0, 0] (shapeCast S1x1x1 v h2) h3
      = v (Shape.reshapeEquiv h2 fun a => ⟨(![0, 0, 0] : Fin 3 → Nat) a, h3 a⟩) := rfl

/-- The maximum over both matrix axes of `w` stacked once, at its one result, is the greatest entry of `w`. -/
theorem reduced_max (w : FVec Ideal S1024x1024 .f32) (h1 : S1024x1024.ShapeCasts S1x1024x1024)
    (hr : S1x1024x1024.Reduces [1, 2] S1) (hφ : FKind.Formats .f32)
    (hacc : (0xFF800000#32 : BitVec (FTy.bits .f32)) = 0xFF800000#32) (j : S1.Idx) :
    multiReduction .maximumf [1, 2] S1 (shapeCast S1x1024x1024 w h1) 0xFF800000#32 hr hφ hacc j = greatest w := by
  refine (multiReduction_maximumf_eq_fold (shapeCast S1x1024x1024 w h1) 0xFF800000#32 hr hφ hacc j).trans ?_
  rw [filter_univ_of_forall _ (fun i => Subsingleton.elim _ _)]
  unfold greatest shapeCast
  exact fold_univ_comp_equiv _ _ w (Shape.reshapeEquiv h1)

/-- The minimum over both matrix axes of `w` stacked once, at its one result, is the least entry of `w`. -/
theorem reduced_min (w : FVec Ideal S1024x1024 .f32) (h1 : S1024x1024.ShapeCasts S1x1024x1024)
    (hr : S1x1024x1024.Reduces [1, 2] S1) (hφ : FKind.Formats .f32)
    (hacc : (0x7F800000#32 : BitVec (FTy.bits .f32)) = 0x7F800000#32) (j : S1.Idx) :
    multiReduction .minimumf [1, 2] S1 (shapeCast S1x1024x1024 w h1) 0x7F800000#32 hr hφ hacc j = least w := by
  refine (multiReduction_minimumf_eq_fold (shapeCast S1x1024x1024 w h1) 0x7F800000#32 hr hφ hacc j).trans ?_
  rw [filter_univ_of_forall _ (fun i => Subsingleton.elim _ _)]
  unfold least shapeCast
  exact fold_univ_comp_equiv _ _ w (Shape.reshapeEquiv h1)

/-- The scalar the body extracts from the maximum's one-entry cube is the greatest entry. -/
theorem extracted_max (w : FVec Ideal S1024x1024 .f32) (h1 : S1024x1024.ShapeCasts S1x1024x1024)
    (hr : S1x1024x1024.Reduces [1, 2] S1) (hφ : FKind.Formats .f32)
    (hacc : (0xFF800000#32 : BitVec (FTy.bits .f32)) = 0xFF800000#32)
    (h2 : S1.ShapeCasts S1x1x1) (h3 : ∀ a, (![0, 0, 0] : Fin 3 → Nat) a < S1x1x1.size a) :
    extractAt ![0, 0, 0] (shapeCast S1x1x1
      (multiReduction .maximumf [1, 2] S1 (shapeCast S1x1024x1024 w h1) 0xFF800000#32 hr hφ hacc) h2) h3 = greatest w :=
  (extract_cast _ h2 h3).trans (reduced_max w h1 hr hφ hacc _)

/-- The scalar the body extracts from the minimum's one-entry cube is the least entry. -/
theorem extracted_min (w : FVec Ideal S1024x1024 .f32) (h1 : S1024x1024.ShapeCasts S1x1024x1024)
    (hr : S1x1024x1024.Reduces [1, 2] S1) (hφ : FKind.Formats .f32)
    (hacc : (0x7F800000#32 : BitVec (FTy.bits .f32)) = 0x7F800000#32)
    (h2 : S1.ShapeCasts S1x1x1) (h3 : ∀ a, (![0, 0, 0] : Fin 3 → Nat) a < S1x1x1.size a) :
    extractAt ![0, 0, 0] (shapeCast S1x1x1
      (multiReduction .minimumf [1, 2] S1 (shapeCast S1x1024x1024 w h1) 0x7F800000#32 hr hφ hacc) h2) h3 = least w :=
  (extract_cast _ h2 h3).trans (reduced_min w h1 hr hφ hacc _)

/-- The body's own term for the greatest entry: the maximum reduction as the program spells it, extracted. -/
theorem printed_max (w : Vec Ideal S1024x1024 .f32) :
    extractAt ![0, 0, 0] (shapeCast S1x1x1
      (multiReduction (F := Ideal) .maximumf [1, 2] S1 (shapeCast S1x1024x1024 w shapeCasts_S1024x1024_S1x1024x1024) 0xFF800000#32
        reduces_S1x1024x1024_S1 (.inl rfl) rfl) shapeCasts_S1_S1x1x1) inpos_S1x1x1_p0_0_0 = greatest w :=
  extracted_max w _ _ _ _ _ _

/-- The body's own term for the least entry: the minimum reduction as the program spells it, extracted. -/
theorem printed_min (w : Vec Ideal S1024x1024 .f32) :
    extractAt ![0, 0, 0] (shapeCast S1x1x1
      (multiReduction (F := Ideal) .minimumf [1, 2] S1 (shapeCast S1x1024x1024 w shapeCasts_S1024x1024_S1x1024x1024) 0x7F800000#32
        reduces_S1x1024x1024_S1 (.inl rfl) rfl) shapeCasts_S1_S1x1x1) inpos_S1x1x1_p0_0_0 = least w :=
  extracted_min w _ _ _ _ _ _

/-- THE QUANTISER: the block the body parks in the scratch is the quantised weight matrix, entry by entry. Once the two
    scalars are the matrix's greatest and least entries and the indicator is the comparison's bit read as a number,
    both sides are the same expression of the entry: the operations of the extended reals, applied pointwise. -/
theorem quantiser_apply (w : Vec Ideal S1024x1024 .f32) (i : S1024x1024.Idx) :
    k0_pay1 (F := Ideal) w i = quantized w i := by
  unfold k0_pay1
  rw [printed_max w, printed_min w, shapeCast_self, sitofp_extui_eq_uitofp]
  rfl

/-- The same as an equation of whole blocks. -/
theorem quantiser_eq (w : Vec Ideal S1024x1024 .f32) : k0_pay1 (F := Ideal) w = quantized w :=
  funext (quantiser_apply w)

end Cert.KernelIdeal.Quantiser

end
-- ==== Proof.LayerKernel.lean ====
/-
  The kernel's product payload, read at an entry, on the extended reals.

  The second payload takes the activation block `x` (1024 rows of the activations), the scratch `q` (the quantised
  weights, in their own [out, in] orientation) and the bias row `b`, and returns the output block. The matrix unit
  contracts the LAST axis of both operands into a zero accumulator, so entry `(p, n)` of the product is the sum over
  `k` of `x[p, k] * q[n, k]` — row against row, no transpose anywhere — and the bias row is copied down every row of the
  block: `(sum over k of x[p, k] * q[n, k]) + b[0, n]`. The change of float format in front of the product is the
  identity here.
-/
import proofs.«156825_j6030134083893_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Product

open Cert.KernelIdeal Cert.KernelIdeal.Gen Idealize.ShloMosaic Idealize.ShloMosaic.ValueIdx

/-- The left operand's row coordinate is the output's row. -/
theorem lhs_row (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl

/-- The left operand's column coordinate is the contracted one. -/
theorem lhs_col (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q

/-- The right operand's row coordinate is the output's COLUMN: the weights are met row by row. -/
theorem rhs_row (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl

/-- The right operand's column coordinate is the contracted one. -/
theorem rhs_col (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- THE PRODUCT at an entry: row `p` of the activation block against row `n` of the scratch, plus the bias at `n`. -/
theorem product_apply (x : FVec Ideal S1024x1024 .f32) (q : FVec Ideal S1024x1024 .bf16) (b : FVec Ideal S1x1024 .f32)
    (p n : Fin 1024) :
    k0_pay2 (F := Ideal) x q b (ix2 p n) = (∑ k : Fin 1024, x (ix2 p k) * q (ix2 n k)) + b (ix2 (0 : Fin 1) n) := by
  unfold k0_pay2
  simp only [shapeCast_self]
  rw [addf_apply, broadcastTo_1b_ab_apply]
  congr 1
  refine (Ideal.matmul_constant_zero_apply dot_S1024x1024_S1024x1024_S1024x1024_1_1_0_0_n_n none _ q (ix2 p n)).trans ?_
  rw [← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p n) ((contrEquiv1 dot_S1024x1024_S1024x1024_S1024x1024_1_1_0_0_n_n 1024 rfl rfl).symm k) = ix2 p k :=
    funext fun a => Fin.ext (by
      match a with
      | ⟨0, _⟩ => exact lhs_row _ _
      | ⟨1, _⟩ => exact (lhs_col _ _).trans hk)
  have er : dot_S1024x1024_S1024x1024_S1024x1024_1_1_0_0_n_n.rhsIdx (ix2 p n) ((contrEquiv1 dot_S1024x1024_S1024x1024_S1024x1024_1_1_0_0_n_n 1024 rfl rfl).symm k) = ix2 n k :=
    funext fun a => Fin.ext (by
      match a with
      | ⟨0, _⟩ => exact rhs_row _ _
      | ⟨1, _⟩ => exact (rhs_col _ _).trans hk)
  rw [el, er]
  rfl

end Cert.KernelIdeal.Product

end
-- ==== Proof.KernelValue.lean ====
/-
  After the whole grid has run, the kernel's result array is the specification's layer of the three argument arrays.

  The grid has 16 points; point `t` sees rows `1024 t … 1024 t + 1023` of the activations, the WHOLE weight matrix, the
  whole one-row bias (the bias vector, reshaped by the host before the launch), and writes rows `1024 t …` of the result.
  The points are run in two chains of eight; the first point of each chain quantises the weights into a scratch that the
  other seven read. So the argument has three parts.
    • The scratch: after EVERY point it holds the quantised weight matrix — at a chain's first point because that point
      stores the quantiser's value of the whole weight block, at any other point because that point leaves the scratch
      as the point before left it. By recursion on the point.
    • One block: what point `t` writes back is, entry `(p, n)`, the sum over `k` of `x[1024 t + p, k]` times the quantised
      `w[n, k]`, plus `b[n]` — the product payload at an entry, its three operands read where the blocks sit in their
      arrays (a block's coordinate in its array is always block index × block size + the coordinate inside the block).
      That is block `t` of the layer.
    • All blocks: row `r` of the result lies in the block of point `r / 1024`, every point writes its block back, so the
      16 blocks cover the array and it ends holding the layer.
-/
import proofs.«156825_j6030134083893_2_alg».proof.Proof.Gen.KernelIdeal.Value
import proofs.«156825_j6030134083893_2_alg».proof.Proof.Pieces
import proofs.«156825_j6030134083893_2_alg».proof.Proof.QuantKernel
import proofs.«156825_j6030134083893_2_alg».proof.Proof.LayerKernel
import proofs.«156825_j6030134083893_2_alg».proof.Proof.FakeQuant
import Idealize.ShloMosaic.Lib.Pipeline.Value
import Idealize.ShloMosaic.Lib.ValueLayout
import Idealize.ShloMosaic.Lib.StableHlo.Run

noncomputable section

open scoped BigOperators

namespace Cert.KernelIdeal.Layer

open Cert.KernelIdeal Cert.KernelIdeal.Gen Cert.KernelIdeal.Value
open Idealize.ShloMosaic Idealize.ShloMosaic.TcCoe Idealize.SL.Sem Idealize.ShloMosaic.ValueIdx Idealize.ShloMosaic.StableHlo
open Idealize.ShloMosaic.Pipeline (Dat)
open Cert.FakeQuant

variable (m : (ℓ : Loc nD τ sig) → Buf (Elt Ideal) ℓ) (ρ : Dev nD → PrngReg)

/-! ## Where the blocks sit -/

/-- The index maps, decided over the 16 points: the activations' and the result's block index is `(t, 0)`, the
    weights' and the bias's is `(0, 0)`. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The weight block at any point is the whole weight matrix. -/
theorem weights_block (c : Dev nD) (t : Fin cfg0.N) (y : S1024x1024.Idx) :
    iblk m c 1 t y = V m c main_arg1 y := by
  obtain ⟨-, -, e0, e1, -⟩ := index_facts t
  show V m c main_arg1 (((cfg0.win 1).blk t).view.emb y) = V m c main_arg1 y
  refine congrArg (V m c main_arg1) (funext fun a => Fin.ext ?_)
  match a with
  | ⟨0, _⟩ => show win0_1.index t (0 : Fin 2) * 1024 + 1 * (y 0).val = (y 0).val; rw [e0]; omega
  | ⟨1, _⟩ => show win0_1.index t (1 : Fin 2) * 1024 + 1 * (y 1).val = (y 1).val; rw [e1]; omega

/-- The activation block at point `t` is rows `1024 t …` of the activations. -/
theorem activations_block (c : Dev nD) (t : Fin cfg0.N) (p k : Fin 1024) (hp : t.val * 1024 + p.val < 16384) :
    iblk m c 0 t (ix2 p k) = V m c main_arg0 (ix2 (⟨t.val * 1024 + p.val, hp⟩ : Fin 16384) k) := by
  obtain ⟨e0, e1, -⟩ := index_facts t
  show V m c main_arg0 (((cfg0.win 0).blk t).view.emb (ix2 p k)) = _
  refine congrArg (V m c main_arg0) (funext fun a => Fin.ext ?_)
  match a with
  | ⟨0, _⟩ => show win0_0.index t (0 : Fin 2) * 1024 + 1 * p.val = t.val * 1024 + p.val; rw [e0]; omega
  | ⟨1, _⟩ => show win0_0.index t (1 : Fin 2) * 1024 + 1 * k.val = k.val; rw [e1]; omega

/-- What the region finds in the one-row bias: the bias vector, reshaped by the host operation before the launch. -/
theorem bias_row (c : Dev nD) :
    (V m c main_v0 : S1x1024.Idx → EReal) = shapeCast S1x1024 (m ((c : Thread nD τ).loc main_arg2)) shapeCasts_S1024_S1x1024 := by
  dsimp only [Gen.V, Gen.hostOps0]
  after_results
  rfl

/-- The bias block at any point, at column `n`, is the bias vector at `n`. -/
theorem bias_block (c : Dev nD) (t : Fin cfg0.N) (n : Fin 1024) :
    iblk m c 2 t (ix2 (0 : Fin 1) n) = m ((c : Thread nD τ).loc main_arg2) (ix1 n) := by
  obtain ⟨-, -, -, -, e0, e1, -⟩ := index_facts t
  have hy : ((cfg0.win 2).blk t).view.emb (ix2 (0 : Fin 1) n) = ix2 (0 : Fin 1) n :=
    funext fun a => Fin.ext (by
      match a with
      | ⟨0, _⟩ => show win0_2.index t (0 : Fin 2) * 1 + 1 * 0 = 0; rw [e0]
      | ⟨1, _⟩ => show win0_2.index t (1 : Fin 2) * 1024 + 1 * n.val = n.val; rw [e1]; omega)
  show V m c main_v0 (((cfg0.win 2).blk t).view.emb (ix2 (0 : Fin 1) n)) = _
  rw [hy, bias_row m c]
  exact shapeCast_a_1a_apply _ _ (0 : Fin 1) n

/-! ## The scratch holds the quantised weights after every point -/

/-- At a chain's first point the scratch is left holding the quantised weight matrix. -/
theorem scratch_first_point (c : Dev nD) (t : Fin cfg0.N) (h0 : t.val % 8 = 0) :
    sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)
      = quantized (V m c main_arg1) :=
  ((Pieces.scratch_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)).trans
    (Quantiser.quantiser_eq (iblk m c 1 t))).trans
    (congrArg quantized (funext (weights_block m c t)))

/-- A chain's first point leaves the quantised weight matrix in the scratch: the accumulation's case equation there,
    projected to the scratch. -/
theorem scratch_at_first (c : Dev nD) (t : Fin cfg0.N) (h0 : t.val % 8 = 0) :
    (outsAt0 m c t.val t.isLt).2 = quantized (V m c main_arg1) := by
  rw [outsAt0_A m c t h0]
  dsimp only
  exact scratch_first_point m c t h0

/-- Any other point leaves in the scratch what the point before left. -/
theorem scratch_at_later (c : Dev nD) (t : Fin cfg0.N) (h0 : ¬t.val % 8 = 0) :
    (outsAt0 m c t.val t.isLt).2 = (outsAt0 m c (t.val - 1) (Nat.lt_of_le_of_lt (Nat.sub_le _ _) t.isLt)).2 := by
  rw [outsAt0_B m c t h0]
  dsimp only
  exact Pieces.scratch_later (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h))
    (iblk m c 0 t) (iblk m c 1 t) (iblk m c 2 t) _

/-- After every point the scratch holds the quantised weight matrix: stored at a chain's first point, kept by the rest.
    By induction on the point. -/
theorem scratch_holds (c : Dev nD) (n : ℕ) (h : n < cfg0.N) : (outsAt0 m c n h).2 = quantized (V m c main_arg1) := by
  induction n with
  | zero => exact scratch_at_first m c ⟨0, h⟩ (Nat.zero_mod 8)
  | succ n ih =>
    by_cases h0 : (n + 1) % 8 = 0
    · exact scratch_at_first m c ⟨n + 1, h⟩ h0
    · exact (scratch_at_later m c ⟨n + 1, h⟩ h0).trans (ih (Nat.lt_of_succ_lt h))

/-! ## One block -/

/-- The result: the layer of the three argument arrays as the region finds them. -/
abbrev result (c : Dev nD) : S16384x1024.Idx → EReal :=
  layer (V m c main_arg0) (V m c main_arg1) (m ((c : Thread nD τ).loc main_arg2))

/-- One entry of the product payload, for ANY blocks that sit in their arrays as the kernel's do: if row `p` of the
    activation block is row `r` of the activations and the bias block's column `n` is the bias at `n`, entry `(p, n)` of
    the payload over weights `q` is entry `(r, n)` of the layer over `q`. -/
theorem block_entry (x : FVec Ideal S1024x1024 .f32) (q : FVec Ideal S1024x1024 .bf16) (b : FVec Ideal S1x1024 .f32)
    (X : (⟨2, ![16384, 1024]⟩ : Shape).Idx → EReal) (B : (⟨1, ![1024]⟩ : Shape).Idx → EReal) (r : Fin 16384) (p n : Fin 1024)
    (hx : ∀ k : Fin 1024, x (ix2 p k) = X (ix2 r k)) (hb : b (ix2 (0 : Fin 1) n) = B (ix1 n)) :
    k0_pay2 (F := Ideal) x q b (ix2 p n) = layerAt X q B r n := by
  refine (Product.product_apply x q b p n).trans ?_
  unfold layerAt
  rw [hb]
  exact congrArg (· + B (ix1 n)) (Finset.sum_congr rfl fun k _ => by rw [hx k])

/-- The product payload over point `t`'s blocks and the quantised weights is block `t` of the layer, entry by entry. -/
theorem block_value (c : Dev nD) (t : Fin cfg0.N) (y : S1024x1024.Idx) :
    k0_pay2 (F := Ideal) (iblk m c 0 t) (quantized (V m c main_arg1)) (iblk m c 2 t) y
      = result m c (((cfg0.win 3).blk t).view.emb y) := by
  obtain ⟨p, n, rfl⟩ : ∃ (p n : Fin 1024), y = ix2 p n := ⟨y 0, y 1, eq_ix2 y⟩
  obtain ⟨-, -, -, -, -, -, e0, e1⟩ := index_facts t
  have hN : cfg0.N = 16 := N_0
  have hp : t.val * 1024 + p.val < 16384 := by have := t.isLt; have := p.isLt; omega
  have hi : ((cfg0.win 3).blk t).view.emb (ix2 p n) = ix2 (⟨t.val * 1024 + p.val, hp⟩ : Fin 16384) n :=
    funext fun a => Fin.ext (by
      match a with
      | ⟨0, _⟩ => show win0_3.index t (0 : Fin 2) * 1024 + 1 * p.val = t.val * 1024 + p.val; rw [e0]; omega
      | ⟨1, _⟩ => show win0_3.index t (1 : Fin 2) * 1024 + 1 * n.val = n.val; rw [e1]; omega)
  rw [hi]
  exact block_entry (iblk m c 0 t) (quantized (V m c main_arg1)) (iblk m c 2 t) (V m c main_arg0)
    (m ((c : Thread nD τ).loc main_arg2)) ⟨t.val * 1024 + p.val, hp⟩ p n
    (fun k => activations_block m c t p k hp) (bias_block m c t n)

/-- WHAT POINT `t` WRITES BACK is block `t` of the layer — at a chain's first point over the scratch it has just
    stored, at any other point over the scratch the point before left. -/
theorem flushed_eq (c : Dev nD) (t : Fin cfg0.N) :
    (dats m 0 c).flushed 3 t = ((cfg0.win 3).blk t).view.read (Elt Ideal) (result m c) := by
  by_cases h0 : t.val % 8 = 0
  · rw [flushed3_A m c t h0]
    refine (congrArg ((cfg0.win 3).cut (grid0.coords t))
      ((Pieces.output_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)).trans
        (congrArg (fun q => k0_pay2 (F := Ideal) (iblk m c 0 t) q (iblk m c 2 t))
          ((Quantiser.quantiser_eq (iblk m c 1 t)).trans (congrArg quantized (funext (weights_block m c t))))))).trans ?_
    funext y
    exact block_value m c t y
  · rw [flushed3_B m c t h0]
    refine (congrArg ((cfg0.win 3).cut (grid0.coords t))
      ((Pieces.output_later (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t)
          (outsAt0 m c (t.val - 1) (Nat.lt_of_le_of_lt (Nat.sub_le _ _) t.isLt)).2).trans
        (congrArg (fun q => k0_pay2 (F := Ideal) (iblk m c 0 t) q (iblk m c 2 t))
          (scratch_holds m c (t.val - 1) (Nat.lt_of_le_of_lt (Nat.sub_le _ _) t.isLt))))).trans ?_
    funext y
    exact block_value m c t y

/-! ## All blocks -/

/-- An index of the result lies in point `t`'s block iff each coordinate is in the block's range on its axis. -/
theorem mem_block (t : Fin cfg0.N) (i : S16384x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v1).slice (win0_3.rect t)).set ↔ _
  rw [View.set_slice_whole, Rect.mem_set_unit]
  exact Iff.rfl

/-- THE RESULT ARRAY after the run is the layer: row `r` lies in the block of point `r / 1024`, and every point writes
    its block back. -/
theorem final (c : Dev nD) : (dats m 0 c).arrAt 3 cfg0.N = result m c :=
  (dats m 0 c).arrAt_eq_of_cover 3 (result m c) (fun t _ => flushed_eq m c t) fun i => by
    have hi0 : (i 0).val < 16384 := (i 0).isLt
    have hi1 : (i 1).val < 1024 := (i 1).isLt
    have hN : cfg0.N = 16 := N_0
    have hq : (i 0).val / 1024 < cfg0.N := by omega
    obtain ⟨-, -, -, -, -, -, e0, e1⟩ := index_facts ⟨(i 0).val / 1024, hq⟩
    refine ⟨⟨(i 0).val / 1024, hq⟩, flush0_3 _, ?_⟩
    rw [mem_block]
    intro a
    match a with
    | ⟨0, _⟩ =>
      show win0_3.index ⟨(i 0).val / 1024, hq⟩ (0 : Fin 2) * 1024 ≤ (i 0).val
        ∧ (i 0).val < win0_3.index ⟨(i 0).val / 1024, hq⟩ (0 : Fin 2) * 1024 + 1024
      rw [e0]; show (i 0).val / 1024 * 1024 ≤ (i 0).val ∧ (i 0).val < (i 0).val / 1024 * 1024 + 1024; omega
    | ⟨1, _⟩ =>
      show win0_3.index ⟨(i 0).val / 1024, hq⟩ (1 : Fin 2) * 1024 ≤ (i 1).val
        ∧ (i 1).val < win0_3.index ⟨(i 0).val / 1024, hq⟩ (1 : Fin 2) * 1024 + 1024
      rw [e1]; omega

/-! ## The run, read -/

/-- Every weakly fair execution of the kernel's program ends with the result array at the layer of the argument
    arrays, and the arguments as launched. -/
theorem run : θ_run defs (onTc (τ := τ) (main (F := Ideal))) ⟨m, fun _ => 0, ρ⟩ fun r => ∀ c : Dev nD,
      r.2.mem ((c : Thread nD τ).loc main_v1)
        = layer (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨by
      rw [(h c).1, final m c]
      show layer (V m c main_arg0) (V m c main_arg1) _ = _
      rw [V_main_arg0 m c, V_main_arg1 m c], (h c).2⟩)
    (run_blocks m ρ)

end Cert.KernelIdeal.Layer

end
-- ==== Proof.ReferenceValue.lean ====
/-
  The reference computes the specification, entry by entry, on the extended reals.

  Its stages, read one operation at a time: the indicator `[w ≠ 0]` (a comparison with a broadcast zero, the bit read as a
  number); the greatest and the least entry (two whole-matrix reductions, from `-∞` and `+∞`: a reduction over every
  axis is the fold over every entry, all of them dropping to the one scalar result); the span; the quantised matrix
  (pointwise, the scalars broadcast to the matrix's shape); the product, contracting the last axis of the activations
  with the last axis of the quantised weights, so entry `(t, n)` is the sum over `k` of `x[t, k] * q[n, k]`; the bias,
  copied to one row and then down every row; the sum. That is `layer x w b`.
-/
import proofs.«156825_j6030134083893_2_alg».proof.Proof.Gen.ReferenceIdeal.Read
import proofs.«156825_j6030134083893_2_alg».proof.Proof.FakeQuant
import proofs.«156825_j6030134083893_2_alg».proof.Proof.LibFoldReindex
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read
open Idealize.ShloMosaic Idealize.ShloMosaic.ValueIdx Cert.FakeQuant Cert.FoldReindex

/-- The scalar shape has one index. -/
instance : Subsingleton S_.Idx := ⟨fun a b => funext fun d => d.elim0⟩

/-- The whole-matrix maximum, at its one result, is the greatest entry. -/
theorem whole_max (w : (⟨S1024x1024, .f32⟩ : BufTy).Contents (Elt Ideal)) (j : S_.Idx) :
    val_main_v3 (F := Ideal) w j = greatest w := by
  unfold val_main_v3 greatest
  refine (Host.reduce_eq_fold _ w _ reducesTo_S1024x1024_S_d0_1 h_S_ j).trans ?_
  rw [filter_univ_of_forall _ (fun i => Subsingleton.elim _ _), val_main_cst_0_apply]

/-- The whole-matrix minimum, at its one result, is the least entry. -/
theorem whole_min (w : (⟨S1024x1024, .f32⟩ : BufTy).Contents (Elt Ideal)) (j : S_.Idx) :
    val_main_v4 (F := Ideal) w j = least w := by
  unfold val_main_v4 least
  refine (Host.reduce_eq_fold _ w _ reducesTo_S1024x1024_S_d0_1 h_S_ j).trans ?_
  rw [filter_univ_of_forall _ (fun i => Subsingleton.elim _ _), val_main_cst_1_apply]

/-- The masked, dequantised weights the reference multiplies with are the quantised matrix, entry by entry: stage by
    stage, outermost first, each operation is read at the entry; the scalars are read at the one index a broadcast
    scalar has, where they are the greatest entry, the least entry and their difference; what is left is the same
    expression of the entry as the specification's. -/
theorem quantised_apply (w : (⟨S1024x1024, .f32⟩ : BufTy).Contents (Elt Ideal)) (i : S1024x1024.Idx) :
    val_main_v19 (F := Ideal) w i = quantized w i := by
  rw [val_main_v19_apply, val_main_v18_apply, val_main_v16_apply, val_main_v15_apply, val_main_v14_apply,
    val_main_v13_apply, val_main_cst_3_apply, val_main_v12_apply, val_main_v11_apply, val_main_v10_apply,
    val_main_cst_2_apply, val_main_v9_apply, val_main_v7_apply, val_main_v6_apply, val_main_v8_apply,
    val_main_v17_apply, val_main_v2_apply, val_main_v1_apply, val_main_v0_apply, val_main_cst_apply]
  repeat rw [val_main_v5_apply]
  repeat rw [whole_max]
  repeat rw [whole_min]
  rfl

/-- THE REFERENCE at an entry is the specification's layer: the product's entry `(t, n)` is the sum over `k` of
    `x[t, k]` times the quantised `w[n, k]`, and the bias reaches entry `(t, n)` through one row as `b[n]`. -/
theorem reference_apply (x : (⟨S16384x1024, .f32⟩ : BufTy).Contents (Elt Ideal))
    (w : (⟨S1024x1024, .f32⟩ : BufTy).Contents (Elt Ideal)) (b : (⟨S1024, .f32⟩ : BufTy).Contents (Elt Ideal))
    (i : S16384x1024.Idx) : val_main_v23 (F := Ideal) x w b i = layer x w b i := by
  obtain ⟨t, n, rfl⟩ : ∃ (t : Fin 16384) (n : Fin 1024), i = ix2 t n := ⟨i 0, i 1, eq_ix2 i⟩
  have hl : ∀ k : Fin 1024, lidx_main_v20 (ix2 t n) k = ix2 t k := fun k =>
    funext fun a => Fin.ext (by match a with | ⟨0, _⟩ => rfl | ⟨1, _⟩ => rfl)
  have hr : ∀ k : Fin 1024, ridx_main_v20 (ix2 t n) k = ix2 n k := fun k =>
    funext fun a => Fin.ext (by match a with | ⟨0, _⟩ => rfl | ⟨1, _⟩ => rfl)
  have hb : idx_main_v21 (idx_main_v22 (ix2 t n)) = ix1 n :=
    funext fun a => Fin.ext (by match a with | ⟨0, _⟩ => rfl)
  rw [val_main_v23_apply, val_main_v20_apply, val_main_v22_apply, val_main_v21_apply, hb]
  show (∑ k : Fin 1024, x (lidx_main_v20 (ix2 t n) k) * val_main_v19 (F := Ideal) w (ridx_main_v20 (ix2 t n) k)) + b (ix1 n)
      = (∑ k : Fin 1024, x (ix2 t k) * quantized w (ix2 n k)) + b (ix1 n)
  refine congrArg (· + b (ix1 n)) (Finset.sum_congr rfl fun k _ => ?_)
  rw [hl k, hr k, quantised_apply]

/-- The same as an equation of whole arrays. -/
theorem reference_eq (x : (⟨S16384x1024, .f32⟩ : BufTy).Contents (Elt Ideal))
    (w : (⟨S1024x1024, .f32⟩ : BufTy).Contents (Elt Ideal)) (b : (⟨S1024, .f32⟩ : BufTy).Contents (Elt Ideal)) :
    val_main_v23 (F := Ideal) x w b = layer x w b :=
  funext (reference_apply x w b)

end Cert.ReferenceIdeal.RefValue

end
-- ==== Proof.lean ====
/-
  A linear layer over fake-quantised weights: the Pallas kernel and its jnp reference compute the same array on the
  extended reals.

  Both programs quantise the weight matrix `w` asymmetrically to four bits — with `hi` the greatest entry, `lo` the least,
  an entry `v` becomes `((hi - lo) * (round (15 * ((v - lo) / (hi - lo))) / 15) + lo) * [v ≠ 0]`, rounding to the nearest
  integer with ties to even — and then apply the layer `y[t, n] = (sum over k of x[t, k] * q[n, k]) + b[n]`.

  The reference does it in one pass of whole-array operations. The kernel tiles the 16384 rows of `x` into 16 blocks of
  1024 rows, runs them as two chains of eight, quantises the whole weight matrix into a scratch at the first block of
  each chain and reuses it for the other seven; it narrows both operands of the product to bf16 first, which changes
  nothing on the extended reals, and contracts the last axis of both operands, which is the reference's einsum. The two
  sides are the SAME expression of the inputs: nothing is re-associated or distributed, so no finiteness of the inputs
  is used; the only law needed is that a maximum or a minimum over all entries does not depend on the order of the
  entries nor on how the index set is written (the kernel reduces the matrix viewed as a stack of one matrix).

  The frames are the generated ones (the reference's is its generated run with the result dropped); the ideal pass rewrote
  nothing, so there is nothing to preserve; the algebraic claim sets the kernel's run (Proof/KernelValue.lean: the scratch
  invariant, one block, all blocks) beside the reference's run (Proof/ReferenceValue.lean), both ending at
  `Cert.FakeQuant.layer` of the argument arrays (Proof/FakeQuant.lean).
-/
import proofs.«156825_j6030134083893_2_alg».proof.Defs
import proofs.«156825_j6030134083893_2_alg».proof.Proof.Gen.Kernel
import proofs.«156825_j6030134083893_2_alg».proof.Proof.Gen.Kernel.Skeleton
import proofs.«156825_j6030134083893_2_alg».proof.Proof.Gen.Kernel.Launch
import proofs.«156825_j6030134083893_2_alg».proof.Proof.Gen.Kernel.Points
import proofs.«156825_j6030134083893_2_alg».proof.Proof.Gen.Kernel.Frame
import proofs.«156825_j6030134083893_2_alg».proof.Proof.Gen.KernelIdeal
import proofs.«156825_j6030134083893_2_alg».proof.Proof.Gen.KernelIdeal.Skeleton
import proofs.«156825_j6030134083893_2_alg».proof.Proof.Gen.KernelIdeal.Launch
import proofs.«156825_j6030134083893_2_alg».proof.Proof.Gen.KernelIdeal.Points
import proofs.«156825_j6030134083893_2_alg».proof.Proof.Gen.KernelIdeal.Frame
import proofs.«156825_j6030134083893_2_alg».proof.Proof.Gen.ReferenceIdeal
import proofs.«156825_j6030134083893_2_alg».proof.Proof.Gen.Pre_finite_inputs
import proofs.«156825_j6030134083893_2_alg».proof.Proof.Gen.KernelIdeal.Value
import proofs.«156825_j6030134083893_2_alg».proof.Proof.Gen.ReferenceIdeal.Run
import proofs.«156825_j6030134083893_2_alg».proof.Proof.Gen.ReferenceIdeal.Read
import proofs.«156825_j6030134083893_2_alg».proof.Proof.KernelValue
import proofs.«156825_j6030134083893_2_alg».proof.Proof.ReferenceValue
import Idealize.ShloMosaic.Adequacy
import Idealize.ShloMosaic.Init

noncomputable section

namespace Cert.Proof

open Idealize.ShloMosaic Idealize.ShloMosaic.TcCoe Idealize.SL.Sem

/-- The word-level kernel terminates, faults nowhere and leaves its arguments as launched. -/
theorem frame_kernel : Cert.frame_Kernel := fun m ρ _ => Cert.Kernel.Gen.frame m ρ

/-- So does the idealised kernel. -/
theorem frame_kernel_ideal : Cert.frame_KernelIdeal := fun m ρ _ => Cert.KernelIdeal.Gen.frame m ρ

/-- So does the reference: its run to the composed term of the arguments, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealisation rewrote no operation of the kernel. -/
theorem preserves : Cert.preserves_Kernel_KernelIdeal := trivial

/-- From memories that agree on the three arguments, both programs end with the result array at the layer of the
    arguments over the quantised weights: the kernel block by block, the reference stage by stage. -/
theorem algebraic : Cert.algebraic_KernelIdeal_ReferenceIdeal := by
  intro m ρ m' ρ' _ hagree
  refine ⟨fun c => Cert.FakeQuant.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Layer.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v23_eq, Cert.ReferenceIdeal.RefValue.reference_eq,
    (hagree c).1, (hagree c).2.1, (hagree c).2.2]

/-- The certificate's claim: the programs' stated side conditions hold (the generated facts), and under them the three
    frames, the (empty) idealisation ledger and the equality of the two results. -/
theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
